-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512x80 : Shape := ⟨2, ![512, 80]⟩
abbrev S80 : Shape := ⟨1, ![80]⟩
abbrev S64x512 : Shape := ⟨2, ![64, 512]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512x80 : S_.BroadcastsInDim S512x80 (![] : Fin 0 → Fin S512x80.rank)
  reducesTo_S512x80_S_d0_1 : S512x80.ReducesTo [0, 1] S_
  bcast_S_S80 : S_.BroadcastsInDim S80 (![] : Fin 0 → Fin S80.rank)
  reducesTo_S80_S_d0 : S80.ReducesTo [0] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg4 : FVec F S64x512 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S64x512 .f32 := Host.absf main_arg4
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  main_v23

def fn {F : FTy → Type} [FloatOps F] (main_arg0 : FVec F S64x1024x512 .f32) (main_arg1 : FVec F S512x80 .f32) (main_arg2 : FVec F S80 .f32) (main_arg3 : FVec F S80 .f32) (main_arg4 : FVec F S64x512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512x80 .f32 := Host.absf main_arg1
  let main_cst_0 : FVec F S_ .f32 := constant S_ .f32 0x7F800000#32
  let main_v5 : FVec F S512x80 .f32 := broadcastInDim S512x80 ![] bcast_S_S512x80 main_cst_0
  let main_v6 : IVec S512x80 1 := cmpf .olt main_v4 main_v5
  let main_c_1 : IVec S_ 1 := constantI S_ 1 1#1
  let main_v7 : IVec S_ 1 := (fun x v => Host.reduce IntOp.andi x v reducesTo_S512x80_S_d0_1 h_S_) main_v6 main_c_1
  let main_v8 : IVec S_ 1 := andi main_v3 main_v7
  let main_v9 : FVec F S80 .f32 := Host.absf main_arg2
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg4 main_v13 main_v16
-- ==== Kernel.lean ====
abbrev S64x1024x512 : Shape := ⟨3, ![64, 1024, 512]⟩
abbrev S512x80 : Shape := ⟨2, ![512, 80]⟩
abbrev S80 : Shape := ⟨1, ![80]⟩
abbrev S64x512 : Shape := ⟨2, ![64, 512]⟩
abbrev S512x64 : Shape := ⟨2, ![512, 64]⟩
abbrev S1x80 : Shape := ⟨2, ![1, 80]⟩
abbrev S64x512x64 : Shape := ⟨3, ![64, 512, 64]⟩
abbrev S2x1024x512 : Shape := ⟨3, ![2, 1024, 512]⟩
abbrev S2x512x64 : Shape := ⟨3, ![2, 512, 64]⟩
abbrev S2048x512 : Shape := ⟨2, ![2048, 512]⟩
abbrev S2048x80 : Shape := ⟨2, ![2048, 80]⟩
abbrev S2048 : Shape := ⟨1, ![2048]⟩
abbrev S2048x1 : Shape := ⟨2, ![2048, 1]⟩
abbrev S2048x64 : Shape := ⟨2, ![2048, 64]⟩
abbrev S2x1024x64 : Shape := ⟨3, ![2, 1024, 64]⟩
abbrev S2x64 : Shape := ⟨2, ![2, 64]⟩
abbrev S2x1x64 : Shape := ⟨3, ![2, 1, 64]⟩
abbrev S2x64x512 : Shape := ⟨3, ![2, 64, 512]⟩
abbrev S1x512x64 : Shape := ⟨3, ![1, 512, 64]⟩
abbrev S2x512 : Shape := ⟨2, ![2, 512]⟩
abbrev S2x512x1 : Shape := ⟨3, ![2, 512, 1]⟩
abbrev S2x1 : Shape := ⟨2, ![2, 1]⟩
abbrev S2x1x1 : Shape := ⟨3, ![2, 1, 1]⟩
abbrev S64x32768 : Shape := ⟨2, ![64, 32768]⟩

abbrev nBuf : Space → Nat
  | .hbm => 10
  | .vmem => 8
  | .smem => 0
  | _ => 0

abbrev bufTy : (tb : Table) → Fin (tcTables nBuf tb) → BufTy
  | .hbm, ⟨0, _⟩ => ⟨S64x1024x512, .f32⟩
  | .hbm, ⟨1, _⟩ => ⟨S512x80, .f32⟩
  | .hbm, ⟨2, _⟩ => ⟨S80, .f32⟩
  | .hbm, ⟨3, _⟩ => ⟨S80, .f32⟩
  | .hbm, ⟨4, _⟩ => ⟨S64x512, .f32⟩
  | .hbm, ⟨5, _⟩ => ⟨S512x64, .f32⟩
  | .hbm, ⟨6, _⟩ => ⟨S1x80, .f32⟩
  | .hbm, ⟨7, _⟩ => ⟨S1x80, .f32⟩
  | .hbm, ⟨8, _⟩ => ⟨S64x512x64, .f32⟩
  | .hbm, ⟨9, _⟩ => ⟨S64x32768, .f32⟩
  | .local _ .vmem, ⟨0, _⟩ => ⟨S2x1024x512, .f32⟩
  | .local _ .vmem, ⟨1, _⟩ => ⟨S2x1024x512, .f32⟩
  | .local _ .vmem, ⟨2, _⟩ => ⟨S512x80, .f32⟩
  | .local _ .vmem, ⟨3, _⟩ => ⟨S512x64, .f32⟩
  | .local _ .vmem, ⟨4, _⟩ => ⟨S1x80, .f32⟩
  | .local _ .vmem, ⟨5, _⟩ => ⟨S1x80, .f32⟩
  | .local _ .vmem, ⟨6, _⟩ => ⟨S2x512x64, .f32⟩
  | .local _ .vmem, ⟨7, _⟩ => ⟨S2x512x64, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x512_S512x64_1_0 : S64x512.Transposes [1, 0] S512x64
  shapeCasts_S80_S1x80 : S80.ShapeCasts S1x80
  inb_S2x1024x512_S2x1024x512_0_0_0 : ∀ a, (![0, 0, 0] : Fin 3 → Nat) a + S2x1024x512.size a ≤ S2x1024x512.size a
  h_S2x1024x512 : 0 < S2x1024x512.numel
  bitsLt_bf16_f32 : FTy.bits .bf16 < FTy.bits .f32
  shapeCasts_S2x1024x512_S2048x512 : S2x1024x512.ShapeCasts S2048x512
  inb_S512x80_S512x80_0_0 : ∀ a, (![0, 0] : Fin 2 → Nat) a + S512x80.size a ≤ S512x80.size a
  h_S512x80 : 0 < S512x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S2048x80 : S1x80.Broadcasts S2048x80
  reduces_S2048x80_S2048 : S2048x80.Reduces [1] S2048
  shapeCasts_S2048_S2048x1 : S2048.ShapeCasts S2048x1
  broadcasts_S2048x1_S2048x80 : S2048x1.Broadcasts S2048x80
  slices_S2048x80_o0_0_S2048x64 : S2048x80.Slices ![0, 0] S2048x64
  shapeCasts_S2048x64_S2x1024x64 : S2048x64.ShapeCasts S2x1024x64
  reduces_S2x1024x64_S2x64 : S2x1024x64.Reduces [1] S2x64
  shapeCasts_S2x64_S2x1x64 : S2x64.ShapeCasts S2x1x64
  transposes_S2x64x512_p0_2_1_S2x512x64 : S2x64x512.Transposes [0, 2, 1] S2x512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S512x64_S1x512x64 : S512x64.ShapeCasts S1x512x64
  broadcasts_S2x1x64_S2x512x64 : S2x1x64.Broadcasts S2x512x64
  broadcasts_S1x512x64_S2x512x64 : S1x512x64.Broadcasts S2x512x64
  reduces_S2x512x64_S2x512 : S2x512x64.Reduces [2] S2x512
  shapeCasts_S2x512_S2x512x1 : S2x512.ShapeCasts S2x512x1
  broadcasts_S2x512x1_S2x512x64 : S2x512x1.Broadcasts S2x512x64
  reduces_S2x512x1_S2x1 : S2x512x1.Reduces [1] S2x1
  shapeCasts_S2x1_S2x1x1 : S2x1.ShapeCasts S2x1x1
  broadcasts_S2x1x1_S2x512x64 : S2x1x1.Broadcasts S2x512x64
  inb_S2x512x64_S2x512x64_0_0_0 : ∀ a, (![0, 0, 0] : Fin 3 → Nat) a + S2x512x64.size a ≤ S2x512x64.size a
  h_S2x512x64 : 0 < S2x512x64.numel
  shapeCasts_S64x512x64_S64x32768 : S64x512x64.ShapeCasts S64x32768
  dot_S2048x512_S512x80_S2048x80_1_0_0_1_n_n_wf : DotDims.WF S2048x512 S512x80 S2048x80 [1] [0] [0] [1] [] []
  dot_S2x1024x64_S2x1024x512_S2x64x512_1_1_2_2_0_0_wf : DotDims.WF S2x1024x64 S2x1024x512 S2x64x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x512.size a ≤ S64x1024x512.size a
  hwx0_0 : ∀ i : grid0.Coords, EltTy.bits .f32 = 32 ∨ (Rect.block (s := S64x1024x512) S2x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x80.size a ≤ S512x80.size a
  hwx0_1 : ∀ i : grid0.Coords, EltTy.bits .f32 = 32 ∨ (Rect.block (s := S512x80) S512x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x80.size a ≤ S1x80.size a
  hwx0_3 : ∀ i : grid0.Coords, EltTy.bits .f32 = 32 ∨ (Rect.block (s := S1x80) S1x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x80.size a ≤ S1x80.size a
  hwx0_4 : ∀ i : grid0.Coords, EltTy.bits .f32 = 32 ∨ (Rect.block (s := S1x80) S1x80.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x64.size a ≤ S64x512x64.size a
  hwx0_5 : ∀ i : grid0.Coords, EltTy.bits .f32 = 32 ∨ (Rect.block (s := S64x512x64) S2x512x64.size (cc0_transform_5 i) (hinb0_5 i)).WholeWords (EltTy.packing .f32)

variable [Facts₀]

def dot_S2048x512_S512x80_S2048x80_1_0_0_1_n_n : DotDims S2048x512 S512x80 S2048x80 where
  lhsContracting := [1]
  rhsContracting := [0]
  lhsNonContracting := [0]
  rhsNonContracting := [1]
  lhsBatch := []
  rhsBatch := []
  wf := dot_S2048x512_S512x80_S2048x80_1_0_0_1_n_n_wf
def dot_S2x1024x64_S2x1024x512_S2x64x512_1_1_2_2_0_0 : DotDims S2x1024x64 S2x1024x512 S2x64x512 where
  lhsContracting := [1]
  rhsContracting := [1]
  lhsNonContracting := [2]
  rhsNonContracting := [2]
  lhsBatch := [0]
  rhsBatch := [0]
  wf := dot_S2x1024x64_S2x1024x512_S2x64x512_1_1_2_2_0_0_wf

abbrev win0_0 : Pipeline.Window sig grid0 :=
  Pipeline.Window.ofSpec (Memref.whole main_arg0) S2x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S512x80 : Shape := ⟨2, ![512, 80]⟩
abbrev S80 : Shape := ⟨1, ![80]⟩
abbrev S64x512 : Shape := ⟨2, ![64, 512]⟩
abbrev S65536x512 : Shape := ⟨2, ![65536, 512]⟩
abbrev S65536x80 : Shape := ⟨2, ![65536, 80]⟩
abbrev S1x80 : Shape := ⟨2, ![1, 80]⟩
abbrev S_ : Shape := ⟨0, ![]⟩
abbrev S65536 : Shape := ⟨1, ![65536]⟩
abbrev S65536x1 : Shape := ⟨2, ![65536, 1]⟩
abbrev S65536x64 : Shape := ⟨2, ![65536, 64]⟩
abbrev S64x1024x64 : Shape := ⟨3, ![64, 1024, 64]⟩
abbrev S64x64 : Shape := ⟨2, ![64, 64]⟩
abbrev S64x64x512 : Shape := ⟨3, ![64, 64, 512]⟩
abbrev S64x64x1 : Shape := ⟨3, ![64, 64, 1]⟩
abbrev S1x64x512 : Shape := ⟨3, ![1, 64, 512]⟩
abbrev S64x512x64 : Shape := ⟨3, ![64, 512, 64]⟩
abbrev S64x512x1 : Shape := ⟨3, ![64, 512, 1]⟩
abbrev S64x32768 : Shape := ⟨2, ![64, 32768]⟩
abbrev S64 : Shape := ⟨1, ![64]⟩
abbrev S64x1 : Shape := ⟨2, ![64, 1]⟩

abbrev nBuf : Space → Nat
  | .hbm => 64
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512x80, .f32⟩
  | .hbm, ⟨2, _⟩ => ⟨S80, .f32⟩
  | .hbm, ⟨3, _⟩ => ⟨S80, .f32⟩
  | .hbm, ⟨4, _⟩ => ⟨S64x512, .f32⟩
  | .hbm, ⟨5, _⟩ => ⟨S65536x512, .f32⟩
  | .hbm, ⟨6, _⟩ => ⟨S65536x80, .f32⟩
  | .hbm, ⟨7, _⟩ => ⟨S1x80, .f32⟩
  | .hbm, ⟨8, _⟩ => ⟨S65536x80, .f32⟩
  | .hbm, ⟨9, _⟩ => ⟨S65536x80, .f32⟩
  | .hbm, ⟨10, _⟩ => ⟨S_, .f32⟩
  | .hbm, ⟨11, _⟩ => ⟨S80, .f32⟩
  | .hbm, ⟨12, _⟩ => ⟨S80, .f32⟩
  | .hbm, ⟨13, _⟩ => ⟨S80, .f32⟩
  | .hbm, ⟨14, _⟩ => ⟨S1x80, .f32⟩
  | .hbm, ⟨15, _⟩ => ⟨S65536x80, .f32⟩
  | .hbm, ⟨16, _⟩ => ⟨S65536x80, .f32⟩
  | .hbm, ⟨17, _⟩ => ⟨S_, .f32⟩
  | .hbm, ⟨18, _⟩ => ⟨S65536, .f32⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S65536x1, .f32⟩
  | .hbm, ⟨23, _⟩ => ⟨S65536x80, .f32⟩
  | .hbm, ⟨24, _⟩ => ⟨S65536x80, .f32⟩
  | .hbm, ⟨25, _⟩ => ⟨S65536x80, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S65536x80, .f32⟩
  | .hbm, ⟨30, _⟩ => ⟨S65536x80, .f32⟩
  | .hbm, ⟨31, _⟩ => ⟨S65536x64, .f32⟩
  | .hbm, ⟨32, _⟩ => ⟨S64x1024x64, .f32⟩
  | .hbm, ⟨33, _⟩ => ⟨S_, .f32⟩
  | .hbm, ⟨34, _⟩ => ⟨S64x64, .f32⟩
  | .hbm, ⟨35, _⟩ => ⟨S64x64x512, .f32⟩
  | .hbm, ⟨36, _⟩ => ⟨S64x64x1, .f32⟩
  | .hbm, ⟨37, _⟩ => ⟨S1x64x512, .f32⟩
  | .hbm, ⟨38, _⟩ => ⟨S64x64x512, .f32⟩
  | .hbm, ⟨39, _⟩ => ⟨S64x64x512, .f32⟩
  | .hbm, ⟨40, _⟩ => ⟨S64x64x512, .f32⟩
  | .hbm, ⟨41, _⟩ => ⟨S64x64x512, .f32⟩
  | .hbm, ⟨42, _⟩ => ⟨S64x512x64, .f32⟩
  | .hbm, ⟨43, _⟩ => ⟨S64x512x64, .f32⟩
  | .hbm, ⟨44, _⟩ => ⟨S_, .f32⟩
  | .hbm, ⟨45, _⟩ => ⟨S64x512, .f32⟩
  | .hbm, ⟨46, _⟩ => ⟨S64x512x1, .f32⟩
  | .hbm, ⟨47, _⟩ => ⟨S64x512x1, .f32⟩
  | .hbm, ⟨48, _⟩ => ⟨S_, .f32⟩
  | .hbm, ⟨49, _⟩ => ⟨S64x512x1, .f32⟩
  | .hbm, ⟨50, _⟩ => ⟨S64x512x1, .f32⟩
  | .hbm, ⟨51, _⟩ => ⟨S64x512x64, .f32⟩
  | .hbm, ⟨52, _⟩ => ⟨S64x512x64, .f32⟩
  | .hbm, ⟨53, _⟩ => ⟨S64x32768, .f32⟩
  | .hbm, ⟨54, _⟩ => ⟨S64x32768, .f32⟩
  | .hbm, ⟨55, _⟩ => ⟨S_, .f32⟩
  | .hbm, ⟨56, _⟩ => ⟨S64, .f32⟩
  | .hbm, ⟨57, _⟩ => ⟨S64x1, .f32⟩
  | .hbm, ⟨58, _⟩ => ⟨S64x1, .f32⟩
  | .hbm, ⟨59, _⟩ => ⟨S_, .f32⟩
  | .hbm, ⟨60, _⟩ => ⟨S64x1, .f32⟩
  | .hbm, ⟨61, _⟩ => ⟨S64x1, .f32⟩
  | .hbm, ⟨62, _⟩ => ⟨S64x32768, .f32⟩
  | .hbm, ⟨63, _⟩ => ⟨S64x32768, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_v0 : Ref sig .tc := ⟨.hbm, 54, rfl⟩
abbrev main_call1_cst : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  shapeCasts_S64x1024x512_S65536x512 : S64x1024x512.ShapeCasts S65536x512
  bcast_S80_S1x80_1 : S80.BroadcastsInDim S1x80 (![1] : Fin 1 → Fin S1x80.rank)
  bcast_S1x80_S65536x80_0_1 : S1x80.BroadcastsInDim S65536x80 (![0, 1] : Fin 2 → Fin S65536x80.rank)
  bcast_S_S80 : S_.BroadcastsInDim S80 (![] : Fin 0 → Fin S80.rank)
  reducesTo_S65536x80_S65536_d1 : S65536x80.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x80_0_1 : S65536x1.BroadcastsInDim S65536x80 (![0, 1] : Fin 2 → Fin S65536x80.rank)
  slices_S65536x80_S65536x64_0_0 : S65536x80.Slices ![0, 0] S65536x64
  shapeCasts_S65536x64_S64x1024x64 : S65536x64.ShapeCasts S64x1024x64
  reducesTo_S64x1024x64_S64x64_d1 : S64x1024x64.ReducesTo [1] S64x64
  bcast_S64x64_S64x64x1_0_1 : S64x64.BroadcastsInDim S64x64x1 (![0, 1] : Fin 2 → Fin S64x64x1.rank)
  bcast_S64x512_S1x64x512_1_2 : S64x512.BroadcastsInDim S1x64x512 (![1, 2] : Fin 2 → Fin S1x64x512.rank)
  bcast_S64x64x1_S64x64x512_0_1_2 : S64x64x1.BroadcastsInDim S64x64x512 (![0, 1, 2] : Fin 3 → Fin S64x64x512.rank)
  bcast_S1x64x512_S64x64x512_0_1_2 : S1x64x512.BroadcastsInDim S64x64x512 (![0, 1, 2] : Fin 3 → Fin S64x64x512.rank)
  transposes_S64x64x512_S64x512x64_0_2_1 : S64x64x512.Transposes [0, 2, 1] S64x512x64
  reducesTo_S64x512x64_S64x512_d2 : S64x512x64.ReducesTo [2] S64x512
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x64_0_1_2 : S64x512x1.BroadcastsInDim S64x512x64 (![0, 1, 2] : Fin 3 → Fin S64x512x64.rank)
  shapeCasts_S64x512x64_S64x32768 : S64x512x64.ShapeCasts S64x32768
  reducesTo_S64x32768_S64_d1 : S64x32768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32768_0_1 : S64x1.BroadcastsInDim S64x32768 (![0, 1] : Fin 2 → Fin S64x32768.rank)
  dot_S65536x512_S512x80_S65536x80_1_0_0_1_n_n_wf : DotDims.WF S65536x512 S512x80 S65536x80 [1] [0] [0] [1] [] []
  dot_S64x1024x64_S64x1024x512_S64x64x512_1_1_2_2_0_0_wf : DotDims.WF S64x1024x64 S64x1024x512 S64x64x512 [1] [1] [2] [2] [0] [0]

variable [Facts₀]

def dot_S65536x512_S512x80_S65536x80_1_0_0_1_n_n : DotDims S65536x512 S512x80 S65536x80 where
  lhsContracting := [1]
  rhsContracting := [0]
  lhsNonContracting := [0]
  rhsNonContracting := [1]
  lhsBatch := []
  rhsBatch := []
  wf := dot_S65536x512_S512x80_S65536x80_1_0_0_1_n_n_wf
def dot_S64x1024x64_S64x1024x512_S64x64x512_1_1_2_2_0_0 : DotDims S64x1024x64 S64x1024x512 S64x64x512 where
  lhsContracting := [1]
  rhsContracting := [1]
  lhsNonContracting := [2]
  rhsNonContracting := [2]
  lhsBatch := [0]
  rhsBatch := [0]
  wf := dot_S64x1024x64_S64x1024x512_S64x64x512_1_1_2_2_0_0_wf

class Facts : Prop extends Facts₀ where

variable [Facts]
-- ==== Proof.BodyDots.lean ====
/-
  The kernel body's two matrix products, read at an index.

  The first multiplies the tile's 2048 token rows (512 features each) by the 512 x 80 cluster directions: entry
  (r, j) is the sum over the feature k of row r's entry k times direction j's entry k. The second is batched over
  the tile's two batches and contracts the 1024 tokens: entry (b, k, d) is the sum over the token n of the weight
  (b, n, k) times the feature (b, n, d). Both accumulate into zero, so each entry is just its sum.
-/
import proofs.«145174_j36215164240341_1_alg».proof.Proof.Gen.KernelIdeal
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

abbrev D1 := dot_S2048x512_S512x80_S2048x80_1_0_0_1_n_n
abbrev D2 := dot_S2x1024x64_S2x1024x512_S2x64x512_1_1_2_2_0_0

/-! ## Tokens times directions -/

theorem d1_lhs0 (i : S2048x80.Idx) (q : D1.contr.Idx) : (D1.lhsIdx i q 0).val = (i 0).val := by
  unfold DotDims.lhsIdx
  rw [dif_neg (show ¬(0 : Fin S2048x512.rank) ∈ D1.lhsBatch by decide), dif_pos (show (0 : Fin S2048x512.rank) ∈ D1.lhsNonContracting by decide)]
  rfl
theorem d1_lhs1 (i : S2048x80.Idx) (q : D1.contr.Idx) : (D1.lhsIdx i q 1).val = (q ⟨0, by decide⟩).val :=
  D1.lhsIdx_val_of_single rfl i q
theorem d1_rhs0 (i : S2048x80.Idx) (q : D1.contr.Idx) : (D1.rhsIdx i q 0).val = (q ⟨0, by decide⟩).val :=
  D1.rhsIdx_val_of_single rfl i q
theorem d1_rhs1 (i : S2048x80.Idx) (q : D1.contr.Idx) : (D1.rhsIdx i q 1).val = (i 1).val := by
  unfold DotDims.rhsIdx
  rw [dif_neg (show ¬(1 : Fin S512x80.rank) ∈ D1.rhsBatch by decide), dif_pos (show (1 : Fin S512x80.rank) ∈ D1.rhsNonContracting by decide)]
  rfl

/-- Entry (r, j) of the first product: the sum over the feature k. -/
theorem dot1_apply (L : FVec Ideal S2048x512 .bf16) (R : FVec Ideal S512x80 .bf16) (r : Fin 2048) (j : Fin 80) :
    matmul D1 none L R (constant S2048x80 .f32 0x00000000#32) (ix2 r j) = ∑ k : Fin 512, L (ix2 r k) * R (ix2 k j) := by
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix2 r j) ((contrEquiv1 D1 512 rfl rfl).symm k) = ix2 r k := funext fun a => Fin.ext (by
    match a with
    | ⟨0, _⟩ => exact d1_lhs0 _ _
    | ⟨1, _⟩ => exact (d1_lhs1 _ _).trans hk)
  have er : D1.rhsIdx (ix2 r j) ((contrEquiv1 D1 512 rfl rfl).symm k) = ix2 k j := funext fun a => Fin.ext (by
    match a with
    | ⟨0, _⟩ => exact (d1_rhs0 _ _).trans hk
    | ⟨1, _⟩ => exact d1_rhs1 _ _)
  rw [el, er]

/-! ## Weights times tokens, per batch -/

theorem d2_lhs0 (i : S2x64x512.Idx) (q : D2.contr.Idx) : (D2.lhsIdx i q 0).val = (i 0).val := by
  unfold DotDims.lhsIdx
  rw [dif_pos (show (0 : Fin S2x1024x64.rank) ∈ D2.lhsBatch by decide)]
  rfl
theorem d2_lhs1 (i : S2x64x512.Idx) (q : D2.contr.Idx) : (D2.lhsIdx i q 1).val = (q ⟨0, by decide⟩).val :=
  D2.lhsIdx_val_of_single rfl i q
theorem d2_lhs2 (i : S2x64x512.Idx) (q : D2.contr.Idx) : (D2.lhsIdx i q 2).val = (i 1).val := by
  unfold DotDims.lhsIdx
  rw [dif_neg (show ¬(2 : Fin S2x1024x64.rank) ∈ D2.lhsBatch by decide), dif_pos (show (2 : Fin S2x1024x64.rank) ∈ D2.lhsNonContracting by decide)]
  rfl
theorem d2_rhs0 (i : S2x64x512.Idx) (q : D2.contr.Idx) : (D2.rhsIdx i q 0).val = (i 0).val := by
  unfold DotDims.rhsIdx
  rw [dif_pos (show (0 : Fin S2x1024x512.rank) ∈ D2.rhsBatch by decide)]
  rfl
theorem d2_rhs1 (i : S2x64x512.Idx) (q : D2.contr.Idx) : (D2.rhsIdx i q 1).val = (q ⟨0, by decide⟩).val :=
  D2.rhsIdx_val_of_single rfl i q
theorem d2_rhs2 (i : S2x64x512.Idx) (q : D2.contr.Idx) : (D2.rhsIdx i q 2).val = (i 2).val := by
  unfold DotDims.rhsIdx
  rw [dif_neg (show ¬(2 : Fin S2x1024x512.rank) ∈ D2.rhsBatch by decide), dif_pos (show (2 : Fin S2x1024x512.rank) ∈ D2.rhsNonContracting by decide)]
  rfl

/-- Entry (b, k, d) of the second product: the sum over the token n. -/
theorem dot2_apply (L : FVec Ideal S2x1024x64 .bf16) (R : FVec Ideal S2x1024x512 .bf16) (b : Fin 2) (k : Fin 64) (d : Fin 512) :
    matmul D2 none L R (constant S2x64x512 .f32 0x00000000#32) (ix3 b k d) = ∑ n : Fin 1024, L (ix3 b n k) * R (ix3 b n d) := by
  simp only [matmul]
  rw [Ideal.matmul_constant_zero_apply, ← Equiv.sum_comp (contrEquiv1 D2 1024 rfl rfl).symm]
  refine Finset.sum_congr rfl fun n _ => ?_
  have hn := contrEquiv1_symm_val D2 1024 rfl rfl n
  have el : D2.lhsIdx (ix3 b k d) ((contrEquiv1 D2 1024 rfl rfl).symm n) = ix3 b n k := funext fun a => Fin.ext (by
    match a with
    | ⟨0, _⟩ => exact d2_lhs0 _ _
    | ⟨1, _⟩ => exact (d2_lhs1 _ _).trans hn
    | ⟨2, _⟩ => exact d2_lhs2 _ _)
  have er : D2.rhsIdx (ix3 b k d) ((contrEquiv1 D2 1024 rfl rfl).symm n) = ix3 b n d := funext fun a => Fin.ext (by
    match a with
    | ⟨0, _⟩ => exact d2_rhs0 _ _
    | ⟨1, _⟩ => exact (d2_rhs1 _ _).trans hn
    | ⟨2, _⟩ => exact d2_rhs2 _ _)
  rw [el, er]

end Cert.KernelIdeal.Body

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.Spec.lean ====
/-
  The function both programs compute, for ONE batch, on the extended reals.

  A batch is 1024 tokens of 512 features, xb n d. Against 80 cluster directions cl d j, with running mean rm j and
  running variance rv j, token n has the normalized scores
      score n j = (sum_d xb n d * cl d j - rm j) * rsqrt (rv j + eps).
  Each token's scores are turned into weights by a softmax over the 80 clusters, taken stably: the row maximum is
  subtracted before the exponential, and each exponential is divided by their sum. Only the first 64 clusters keep
  their weights (the other 16 absorb mass and are dropped): A n k.
  The residual descriptor of cluster k along feature d is
      resid d k = sum_n A n k * xb n d - (sum_n A n k) * c2 k d,
  the weighted sum of the tokens minus the total weight times the cluster's centre c2 k d.
  Each feature row d of the descriptor is divided by its Euclidean length over k (not below a small floor), and the
  whole 512 x 64 descriptor is then divided by its Euclidean length (same floor).

  The last length is a sum over all 512 * 64 entries. Summed row by row, or along the flattened axis of length
  32768 whose position j is entry (j / 64, j % 64), it is the same sum: addition of extended reals is
  commutative and associative, so no finiteness is needed (sum_flat).
-/
import Idealize.ShloMosaic.PureOps.Ideal
import Idealize.ShloMosaic.PureOps.Ideal.Laws

noncomputable section

namespace Cert.Vlad

open Idealize.ShloMosaic

/-- The stability floor of both normalizations, as the programs spell it. -/
abbrev floorN : EReal := Ideal.ofBits .f32 0x2B8CBCCC#32

/-- Token n's normalized score against cluster j. -/
def score (xb : Fin 1024 → Fin 512 → EReal) (cl : Fin 512 → Fin 80 → EReal) (rm rv : Fin 80 → EReal)
    (n : Fin 1024) (j : Fin 80) : EReal :=
  ((∑ d : Fin 512, xb n d * cl d j) - rm j) * Ideal.rsqrt (rv j + Ideal.ofBits .f32 0x3727C5AC#32)

/-- The largest of a row of 80 scores, folded from minus infinity. -/
def rowMax (s : Fin 80 → EReal) : EReal :=
  (Finset.univ : Finset (Fin 80)).fold max (Ideal.ofBits .f32 0xFF800000#32) s

/-- The exponential of a score after the row maximum is subtracted. -/
def expo (s : Fin 80 → EReal) (j : Fin 80) : EReal := Ideal.exp (s j - rowMax s)

/-- The softmax weight of cluster j in a row of scores. -/
def soft (s : Fin 80 → EReal) (j : Fin 80) : EReal := Ideal.div (expo s j) (∑ j' : Fin 80, expo s j')

/-- One of the 64 kept clusters, as one of the 80. -/
def kept (k : Fin 64) : Fin 80 := ⟨k.val, by have := k.isLt; omega⟩

/-- The residual descriptor from the weights A of the kept clusters. -/
def resid (xb : Fin 1024 → Fin 512 → EReal) (A : Fin 1024 → Fin 64 → EReal) (c2 : Fin 64 → Fin 512 → EReal)
    (d : Fin 512) (k : Fin 64) : EReal :=
  (∑ n : Fin 1024, A n k * xb n d) - (∑ n : Fin 1024, A n k) * c2 k d

/-- Each feature row divided by its length over the clusters. -/
def intra (V : Fin 512 → Fin 64 → EReal) (d : Fin 512) (k : Fin 64) : EReal :=
  Ideal.div (V d k) (max (Ideal.sqrt (∑ k' : Fin 64, V d k' * V d k')) floorN)

/-- The whole descriptor divided by its length. -/
def glob (W : Fin 512 → Fin 64 → EReal) (d : Fin 512) (k : Fin 64) : EReal :=
  Ideal.div (W d k) (max (Ideal.sqrt (∑ d' : Fin 512, ∑ k' : Fin 64, W d' k' * W d' k')) floorN)

/-- The normalized descriptor of one batch. -/
def vlad (xb : Fin 1024 → Fin 512 → EReal) (cl : Fin 512 → Fin 80 → EReal) (rm rv : Fin 80 → EReal)
    (c2 : Fin 64 → Fin 512 → EReal) : Fin 512 → Fin 64 → EReal :=
  glob (intra (resid xb (fun n k => soft (score xb cl rm rv n) (kept k)) c2))

/-- A sum over a flattened pair of axes is the double sum: position j of the flat axis is entry (j / n, j % n). -/
theorem sum_divMod {M : Type*} [AddCommMonoid M] {m n : ℕ} (f : Fin m → Fin n → M) :
    ∑ j : Fin (m * n), f j.divNat j.modNat = ∑ d : Fin m, ∑ k : Fin n, f d k := by
  rw [← Fintype.sum_prod_type' f]
  exact Equiv.sum_comp finProdFinEquiv.symm (fun p : Fin m × Fin n => f p.1 p.2)

/-- The flattened axis of the descriptor: 32768 = 512 * 64 positions, position j the entry (j / 64, j % 64). -/
theorem sum_flat (f : Fin 512 → Fin 64 → EReal) :
    ∑ j : Fin 32768, f ⟨j.val / 64, by have := j.isLt; omega⟩ ⟨j.val % 64, by omega⟩
      = ∑ d : Fin 512, ∑ k : Fin 64, f d k :=
  sum_divMod (m := 512) (n := 64) f

/-- Minus infinity is the unit of max. -/
theorem max_negInf (y : EReal) : max (Ideal.ofBits .f32 0xFF800000#32) y = y := by
  simp [Ideal.ofBits, Ideal.ieee]

end Cert.Vlad

end
-- ==== Proof.BodyStages.lean ====
/-
  The kernel body, stage by stage, read at an index on the extended reals.

  The body's arithmetic is one long composition. Cut at its natural joints it is six stages, each a function of
  the stage before: the scores of the tile's 2048 tokens; the exponentials after the row maximum is subtracted;
  the softmax weights of the 64 kept clusters, re-laid as 2 batches x 1024 tokens; the residual descriptor (the
  batched product of weights and tokens, transposed, minus total weight times centre); the rows divided by their
  length; the whole divided by its length. The composition of the six IS the printed payload (by unfolding).
  Each stage at an index is the corresponding piece of the specification on the operands at indices: row
  b * 1024 + n of the tile's tall score matrix is token n of batch b, and entry (b, d, k) of every later stage
  depends on batch b of the tile only.
-/
import proofs.«145174_j36215164240341_1_alg».proof.Proof.Gen.KernelIdeal.Skeleton
import proofs.«145174_j36215164240341_1_alg».proof.Proof.BodyDots
import proofs.«145174_j36215164240341_1_alg».proof.Proof.LibAxisReads
import proofs.«145174_j36215164240341_1_alg».proof.Proof.LibColumnForms
import proofs.«145174_j36215164240341_1_alg».proof.Proof.Spec
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.AxisReads Cert.ColumnForms

/-! ## The transcendental operations at an index -/

theorem rsqrt_apply {s : Shape} (a : FVec Ideal s .f32) (i : s.Idx) : rsqrt a i = Ideal.rsqrt (a i) := rfl
theorem exp_apply {s : Shape} (a : FVec Ideal s .f32) (i : s.Idx) : exp a i = Ideal.exp (a i) := rfl
theorem sqrt_apply {s : Shape} (a : FVec Ideal s .f32) (i : s.Idx) : sqrt a i = Ideal.sqrt (a i) := rfl

/-- Row b * 1024 + n of the tile's tall matrices: token n of the tile's batch b. -/
def row (b : Fin 2) (n : Fin 1024) : Fin 2048 := ⟨b.val * 1024 + n.val, by have := b.isLt; have := n.isLt; omega⟩

/-! ## The six stages -/

/-- The normalized scores of the tile's 2048 tokens against the 80 clusters. -/
def scores (v0 : Vec Ideal S2x1024x512 .f32) (v3 : Vec Ideal S512x80 .f32) (v6 v8 : Vec Ideal S1x80 .f32) : FVec Ideal S2048x80 .f32 :=
  mulf (subf (matmul D1 none (shapeCast S2048x512 (truncf .bf16 v0 bitsLt_bf16_f32) shapeCasts_S2x1024x512_S2048x512) (truncf .bf16 v3 bitsLt_bf16_f32) (constant S2048x80 .f32 0x00000000#32))
      (broadcastTo S2048x80 (shapeCast S1x80 v6 shapeCasts_S1x80_S1x80) broadcasts_S1x80_S2048x80))
    (broadcastTo S2048x80 (rsqrt (addf (shapeCast S1x80 v8 shapeCasts_S1x80_S1x80) (broadcast S1x80 (Scalar.ofBits .f32 0x3727C5AC#32)))) broadcasts_S1x80_S2048x80)

/-- The exponentials of the scores, each row's maximum subtracted first. -/
def expos (S : FVec Ideal S2048x80 .f32) : FVec Ideal S2048x80 .f32 :=
  exp (subf S (broadcastTo S2048x80 (shapeCast S2048x1 (multiReduction .maximumf [1] S2048 S 0xFF800000#32 reduces_S2048x80_S2048 (.inl rfl) rfl) shapeCasts_S2048_S2048x1) broadcasts_S2048x1_S2048x80))

/-- The softmax weights of the 64 kept clusters, as 2 batches of 1024 tokens. -/
def weights (S : FVec Ideal S2048x80 .f32) : FVec Ideal S2x1024x64 .f32 :=
  shapeCast S2x1024x64 (extractStridedSlice S2048x64 ![0, 0] (divf (expos S) (broadcastTo S2048x80 (shapeCast S2048x1 (multiReduction .add [1] S2048 (expos S) 0x00000000#32 reduces_S2048x80_S2048 (.inl rfl) rfl) shapeCasts_S2048_S2048x1) broadcasts_S2048x1_S2048x80)) slices_S2048x80_o0_0_S2048x64) shapeCasts_S2048x64_S2x1024x64

/-- The residual descriptor: weighted token sums, transposed, minus total weight times centre. -/
def residual (v0 : Vec Ideal S2x1024x512 .f32) (A : FVec Ideal S2x1024x64 .f32) (v33 : Vec Ideal S512x64 .f32) : FVec Ideal S2x512x64 .f32 :=
  subf (transpose S2x512x64 [0, 2, 1] (matmul D2 none (truncf .bf16 A bitsLt_bf16_f32) (truncf .bf16 v0 bitsLt_bf16_f32) (constant S2x64x512 .f32 0x00000000#32)) transposes_S2x64x512_p0_2_1_S2x512x64)
    (mulf (broadcastTo S2x512x64 (shapeCast S2x1x64 (multiReduction .add [1] S2x64 A 0x00000000#32 reduces_S2x1024x64_S2x64 (.inl rfl) rfl) shapeCasts_S2x64_S2x1x64) broadcasts_S2x1x64_S2x512x64)
      (broadcastTo S2x512x64 (shapeCast S1x512x64 (shapeCast S512x64 v33 shapeCasts_S512x64_S512x64) shapeCasts_S512x64_S1x512x64) broadcasts_S1x512x64_S2x512x64))

/-- Each feature row divided by its length (V2 the entrywise squares of V). -/
def rowNormed (V V2 : FVec Ideal S2x512x64 .f32) : FVec Ideal S2x512x64 .f32 :=
  divf V (broadcastTo S2x512x64 (maximumf (sqrt (shapeCast S2x512x1 (multiReduction .add [2] S2x512 V2 0x00000000#32 reduces_S2x512x64_S2x512 (.inl rfl) rfl) shapeCasts_S2x512_S2x512x1)) (broadcast S2x512x1 (Scalar.ofBits .f32 0x2B8CBCCC#32))) broadcasts_S2x512x1_S2x512x64)

/-- Each batch's descriptor divided by its length. -/
def allNormed (W : FVec Ideal S2x512x64 .f32) : FVec Ideal S2x512x64 .f32 :=
  divf W (broadcastTo S2x512x64 (maximumf (sqrt (shapeCast S2x1x1 (multiReduction .add [1] S2x1 (shapeCast S2x512x1 (multiReduction .add [2] S2x512 (mulf W W) 0x00000000#32 reduces_S2x512x64_S2x512 (.inl rfl) rfl) shapeCasts_S2x512_S2x512x1) 0x00000000#32 reduces_S2x512x1_S2x1 (.inl rfl) rfl) shapeCasts_S2x1_S2x1x1)) (broadcast S2x1x1 (Scalar.ofBits .f32 0x2B8CBCCC#32))) broadcasts_S2x1x1_S2x512x64)

/-! ## The payload is their composition -/

theorem pay2_eq (v0 : Vec Ideal S2x1024x512 .f32) (v3 : Vec Ideal S512x80 .f32) (v6 v8 : Vec Ideal S1x80 .f32) (v33 : Vec Ideal S512x64 .f32) :
    k0_pay2 v0 v3 v6 v8 v33 = residual v0 (weights (scores v0 v3 v6 v8)) v33 := rfl

theorem pay3_eq (v0 : Vec Ideal S2x1024x512 .f32) (v3 : Vec Ideal S512x80 .f32) (v6 v8 : Vec Ideal S1x80 .f32) (v33 : Vec Ideal S512x64 .f32) :
    k0_pay3 v0 v3 v6 v8 v33 = mulf (k0_pay2 v0 v3 v6 v8 v33) (k0_pay2 v0 v3 v6 v8 v33) := rfl

theorem pay1_eq (v39 v40 : FVec Ideal S2x512x64 .f32) : k0_pay1 v39 v40 = allNormed (rowNormed v39 v40) := rfl

/-! ## Each stage at an index -/

theorem scores_apply (v0 : Vec Ideal S2x1024x512 .f32) (v3 : Vec Ideal S512x80 .f32) (v6 v8 : Vec Ideal S1x80 .f32)
    (b : Fin 2) (n : Fin 1024) (j : Fin 80) :
    scores v0 v3 v6 v8 (ix2 (row b n) j)
      = Vlad.score (fun n d => v0 (ix3 b n d)) (fun d j => v3 (ix2 d j)) (fun j => v6 (ix2 (0 : Fin 1) j)) (fun j => v8 (ix2 (0 : Fin 1) j)) n j := by
  unfold scores Vlad.score
  rw [mulf_apply, subf_apply, dot1_apply, broadcastTo_1b_ab_apply, broadcastTo_1b_ab_apply, shapeCast_self, rsqrt_apply, addf_apply,
    shapeCast_self, broadcast_apply]
  refine congrArg₂ (· * ·) (congrArg₂ (· - ·) (Finset.sum_congr rfl fun k _ => ?_) rfl) rfl
  rw [truncf_apply, shapeCast_stack_tall_apply _ _ (row b n) b n k rfl, truncf_apply]

theorem expos_apply (S : FVec Ideal S2048x80 .f32) (r : Fin 2048) (j : Fin 80) :
    expos S (ix2 r j) = Vlad.expo (fun j => S (ix2 r j)) j := by
  unfold expos Vlad.expo Vlad.rowMax
  rw [exp_apply, subf_apply, broadcastTo_a1_ab_apply, shapeCast_a_a1_apply, max_cols]

theorem weights_apply (S : FVec Ideal S2048x80 .f32) (b : Fin 2) (n : Fin 1024) (k : Fin 64) :
    weights S (ix3 b n k) = Vlad.soft (fun j => S (ix2 (row b n) j)) (Vlad.kept k) := by
  unfold weights Vlad.soft
  rw [shapeCast_tall_stack_apply _ _ (row b n) b n k rfl,
    slice2_axis1_apply 0 _ _ (row b n) k (Vlad.kept k) (Nat.zero_add _).symm,
    divf_apply, broadcastTo_a1_ab_apply, shapeCast_a_a1_apply, sum_cols]
  simp only [expos_apply]

theorem residual_apply (v0 : Vec Ideal S2x1024x512 .f32) (A : FVec Ideal S2x1024x64 .f32) (v33 : Vec Ideal S512x64 .f32)
    (b : Fin 2) (d : Fin 512) (k : Fin 64) :
    residual v0 A v33 (ix3 b d k)
      = Vlad.resid (fun n d => v0 (ix3 b n d)) (fun n k => A (ix3 b n k)) (fun k d => v33 (ix2 d k)) d k := by
  unfold residual Vlad.resid
  rw [subf_apply, transpose_ix3_021_apply, dot2_apply, mulf_apply, broadcastTo_a1c_abc_apply, shapeCast_ab_a1b_apply, sum_mid,
    broadcastTo_1bc_abc_apply, shapeCast_ab_1ab_apply, shapeCast_self]
  rfl

theorem rowNormed_apply (V V2 : FVec Ideal S2x512x64 .f32) (b : Fin 2) (d : Fin 512) (k : Fin 64) :
    rowNormed V V2 (ix3 b d k)
      = Ideal.div (V (ix3 b d k)) (max (Ideal.sqrt (∑ k' : Fin 64, V2 (ix3 b d k'))) Vlad.floorN) := by
  unfold rowNormed
  rw [divf_apply, broadcastTo_ab1_abc_apply, maximumf_apply, sqrt_apply, shapeCast_ab_ab1_apply, sum_last, broadcast_apply]
  rfl

theorem allNormed_apply (W : FVec Ideal S2x512x64 .f32) (b : Fin 2) (d : Fin 512) (k : Fin 64) :
    allNormed W (ix3 b d k)
      = Ideal.div (W (ix3 b d k)) (max (Ideal.sqrt (∑ d' : Fin 512, ∑ k' : Fin 64, W (ix3 b d' k') * W (ix3 b d' k'))) Vlad.floorN) := by
  unfold allNormed
  rw [divf_apply, broadcastTo_a11_abc_apply, maximumf_apply, sqrt_apply, shapeCast_ab_a1b_apply, sum_mid, broadcast_apply]
  refine congrArg (fun t => Ideal.div (W (ix3 b d k)) (max (Ideal.sqrt t) Vlad.floorN)) (Finset.sum_congr rfl fun d' _ => ?_)
  rw [shapeCast_ab_ab1_apply, sum_last]
  rfl

/-! ## The whole body at an index -/

/-- Entry (b, d, k) of what the body stores is the normalized descriptor of the tile's batch b. -/
theorem body_apply (x0 : Vec Ideal S2x1024x512 .f32) (x1 : Vec Ideal S512x80 .f32) (x2 : Vec Ideal S512x64 .f32) (x3 x4 : Vec Ideal S1x80 .f32)
    (b : Fin 2) (d : Fin 512) (k : Fin 64) :
    k0_pay1 (k0_pay2 x0 x1 x3 x4 x2) (k0_pay3 x0 x1 x3 x4 x2) (ix3 b d k)
      = Vlad.vlad (fun n d => x0 (ix3 b n d)) (fun d j => x1 (ix2 d j)) (fun j => x3 (ix2 (0 : Fin 1) j)) (fun j => x4 (ix2 (0 : Fin 1) j))
          (fun k d => x2 (ix2 d k)) d k := by
  have hrow : ∀ (d : Fin 512) (k : Fin 64),
      rowNormed (k0_pay2 x0 x1 x3 x4 x2) (mulf (k0_pay2 x0 x1 x3 x4 x2) (k0_pay2 x0 x1 x3 x4 x2)) (ix3 b d k)
        = Vlad.intra (Vlad.resid (fun n d => x0 (ix3 b n d))
            (fun n k => Vlad.soft (Vlad.score (fun n d => x0 (ix3 b n d)) (fun d j => x1 (ix2 d j)) (fun j => x3 (ix2 (0 : Fin 1) j)) (fun j => x4 (ix2 (0 : Fin 1) j)) n) (Vlad.kept k))
            (fun k d => x2 (ix2 d k))) d k := by
    intro d k
    rw [rowNormed_apply]
    unfold Vlad.intra
    simp only [mulf_apply, pay2_eq, residual_apply, weights_apply, scores_apply]
  rw [pay1_eq, pay3_eq, allNormed_apply]
  simp only [hrow]
  rfl

end Cert.KernelIdeal.Body

end
-- ==== Proof.KernelRun.lean ====
/-
  The kernel's run, read: what the result array holds after every weakly fair execution.

  The grid has 32 points; point t stages batches 2t and 2t + 1 of the tokens (a [2, 1024, 512] block) and the
  whole of the four small operands, and writes back rows 2t, 2t + 1 of the [64, 512, 64] descriptor array. The
  operands staged whole reach the region through three host steps: the cluster centres transposed (entry (d, k)
  of the transposed array is entry (k, d) of the argument) and the running mean and variance as single rows.
  So entry (bb, d, k) of what point t writes back is the normalized descriptor of batch 2t + bb of the
  ARGUMENTS at (d, k): one function of the argument arrays, index by index, whatever the point. The 32 blocks
  tile the array (row B belongs to point B / 2), so the array ends holding that function everywhere. The last
  host step re-lays [64, 512, 64] as [64, 32768]: position f of a row is entry (f / 64, f % 64).
-/
import proofs.«145174_j36215164240341_1_alg».proof.Proof.Gen.KernelIdeal.Frame
import proofs.«145174_j36215164240341_1_alg».proof.Proof.BodyStages
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The specification over the argument arrays -/

/-- The normalized descriptor of batch B of the arguments, at (d, k). -/
def Gc (c : Dev nD) (B : Fin 64) (d : Fin 512) (k : Fin 64) : EReal :=
  Vlad.vlad (fun n d => (m ((c : Thread nD τ).loc main_arg0) : S64x1024x512.Idx → EReal) (ix3 B n d))
    (fun d j => (m ((c : Thread nD τ).loc main_arg1) : S512x80.Idx → EReal) (ix2 d j))
    (fun j => (m ((c : Thread nD τ).loc main_arg2) : S80.Idx → EReal) (ix1 j))
    (fun j => (m ((c : Thread nD τ).loc main_arg3) : S80.Idx → EReal) (ix1 j))
    (fun k d => (m ((c : Thread nD τ).loc main_arg4) : S64x512.Idx → EReal) (ix2 k d)) d k

/-- The descriptor array: entry (B, d, k). -/
def G (c : Dev nD) : Buf (Elt Ideal) ((c : Thread nD τ).loc main_v3) := fun i =>
  Gc m c ⟨(i 0).val, (i 0).isLt⟩ ⟨(i 1).val, (i 1).isLt⟩ ⟨(i 2).val, (i 2).isLt⟩

/-- The result: the descriptor array re-laid with one row per batch. -/
def result (c : Dev nD) : Buf (Elt Ideal) ((c : Thread nD τ).loc main_v4) :=
  shapeCast S64x32768 (G m c) shapeCasts_S64x512x64_S64x32768

/-! ## The operands as the region finds them -/

theorem V_v0 (c : Dev nD) : (V m c main_v0 : S512x64.Idx → Elt Ideal .f32)
    = transpose S512x64 [1, 0] (m ((c : Thread nD τ).loc main_arg4)) transposes_S64x512_S512x64_1_0 := by
  show StableHlo.after hostOps0 (fun b => m (c, b)) (Proc.devRef .tc main_v0) = _
  after_results

theorem V_v1 (c : Dev nD) : (V m c main_v1 : S1x80.Idx → Elt Ideal .f32)
    = shapeCast S1x80 (m ((c : Thread nD τ).loc main_arg2)) shapeCasts_S80_S1x80 := by
  show StableHlo.after hostOps0 (fun b => m (c, b)) (Proc.devRef .tc main_v1) = _
  after_results; rfl

theorem V_v2 (c : Dev nD) : (V m c main_v2 : S1x80.Idx → Elt Ideal .f32)
    = shapeCast S1x80 (m ((c : Thread nD τ).loc main_arg3)) shapeCasts_S80_S1x80 := by
  show StableHlo.after hostOps0 (fun b => m (c, b)) (Proc.devRef .tc main_v2) = _
  after_results; rfl

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Batch 2t + bb of the 64, for a point t of the 32 and bb of the tile's 2. -/
def batch (t : Fin cfg0.N) (bb : Fin 2) : Fin 64 :=
  ⟨2 * t.val + bb.val, by have := t.isLt; have hN : cfg0.N = 32 := N_0; have := bb.isLt; omega⟩

/-! ## Each window's block at a point, by coordinates -/

theorem iblk0_apply (c : Dev nD) (t : Fin cfg0.N) (bb : Fin 2) (n : Fin 1024) (d : Fin 512) :
    (iblk m c 0 t : Vec Ideal S2x1024x512 .f32) (ix3 bb n d)
      = (m ((c : Thread nD τ).loc main_arg0) : S64x1024x512.Idx → EReal) (ix3 (batch t bb) n d) := by
  obtain ⟨e0, e1, e2, -⟩ := idx_facts t
  unfold iblk
  rw [View.read_apply]
  show V m c main_arg0 _ = _
  rw [V_main_arg0]
  congr 1
  funext a; apply Fin.ext
  match a with
  | ⟨0, _⟩ => show win0_0.index t (0 : Fin 3) * 2 + 1 * bb.val = 2 * t.val + bb.val; rw [e0]; omega
  | ⟨1, _⟩ => show win0_0.index t (1 : Fin 3) * 1024 + 1 * n.val = n.val; rw [e1]; omega
  | ⟨2, _⟩ => show win0_0.index t (2 : Fin 3) * 512 + 1 * d.val = d.val; rw [e2]; omega

theorem iblk1_apply (c : Dev nD) (t : Fin cfg0.N) (d : Fin 512) (j : Fin 80) :
    (iblk m c 1 t : Vec Ideal S512x80 .f32) (ix2 d j) = (m ((c : Thread nD τ).loc main_arg1) : S512x80.Idx → EReal) (ix2 d j) := by
  obtain ⟨-, -, -, e0, e1, -⟩ := idx_facts t
  unfold iblk
  rw [View.read_apply]
  show V m c main_arg1 _ = _
  rw [V_main_arg1]
  congr 1
  funext a; apply Fin.ext
  match a with
  | ⟨0, _⟩ => show win0_1.index t (0 : Fin 2) * 512 + 1 * d.val = d.val; rw [e0]; omega
  | ⟨1, _⟩ => show win0_1.index t (1 : Fin 2) * 80 + 1 * j.val = j.val; rw [e1]; omega

theorem iblk2_apply (c : Dev nD) (t : Fin cfg0.N) (d : Fin 512) (k : Fin 64) :
    (iblk m c 2 t : Vec Ideal S512x64 .f32) (ix2 d k) = (m ((c : Thread nD τ).loc main_arg4) : S64x512.Idx → EReal) (ix2 k d) := by
  obtain ⟨-, -, -, -, -, e0, e1, -⟩ := idx_facts t
  unfold iblk
  rw [View.read_apply]
  show V m c main_v0 _ = _
  rw [V_v0, ← transpose_ix2_apply (m ((c : Thread nD τ).loc main_arg4)) transposes_S64x512_S512x64_1_0 d k]
  congr 1
  funext a; apply Fin.ext
  match a with
  | ⟨0, _⟩ => show win0_2.index t (0 : Fin 2) * 512 + 1 * d.val = d.val; rw [e0]; omega
  | ⟨1, _⟩ => show win0_2.index t (1 : Fin 2) * 64 + 1 * k.val = k.val; rw [e1]; omega

theorem iblk3_apply (c : Dev nD) (t : Fin cfg0.N) (j : Fin 80) :
    (iblk m c 3 t : Vec Ideal S1x80 .f32) (ix2 (0 : Fin 1) j) = (m ((c : Thread nD τ).loc main_arg2) : S80.Idx → EReal) (ix1 j) := by
  obtain ⟨-, -, -, -, -, -, -, e0, e1, -⟩ := idx_facts t
  unfold iblk
  rw [View.read_apply]
  show V m c main_v1 _ = _
  rw [V_v1, ← shapeCast_a_1a_apply (m ((c : Thread nD τ).loc main_arg2)) shapeCasts_S80_S1x80 (0 : Fin 1) j]
  congr 1
  funext a; apply Fin.ext
  match a with
  | ⟨0, _⟩ => show win0_3.index t (0 : Fin 2) * 1 + 1 * 0 = 0; rw [e0]
  | ⟨1, _⟩ => show win0_3.index t (1 : Fin 2) * 80 + 1 * j.val = j.val; rw [e1]; omega

theorem iblk4_apply (c : Dev nD) (t : Fin cfg0.N) (j : Fin 80) :
    (iblk m c 4 t : Vec Ideal S1x80 .f32) (ix2 (0 : Fin 1) j) = (m ((c : Thread nD τ).loc main_arg3) : S80.Idx → EReal) (ix1 j) := by
  obtain ⟨-, -, -, -, -, -, -, -, -, e0, e1, -⟩ := idx_facts t
  unfold iblk
  rw [View.read_apply]
  show V m c main_v2 _ = _
  rw [V_v2, ← shapeCast_a_1a_apply (m ((c : Thread nD τ).loc main_arg3)) shapeCasts_S80_S1x80 (0 : Fin 1) j]
  congr 1
  funext a; apply Fin.ext
  match a with
  | ⟨0, _⟩ => show win0_4.index t (0 : Fin 2) * 1 + 1 * 0 = 0; rw [e0]
  | ⟨1, _⟩ => show win0_4.index t (1 : Fin 2) * 80 + 1 * j.val = j.val; rw [e1]; omega

/-! ## What the body leaves, over plain operands -/

/-- The one store's payload is what the output buffer holds after the body. -/
theorem out_eq (x0 : Vec Ideal S2x1024x512 .f32) (x1 : Vec Ideal S512x80 .f32) (x2 : Vec Ideal S512x64 .f32) (x3 x4 : Vec Ideal S1x80 .f32) :
    out0_5 x0 x1 x2 x3 x4 = k0_pay1 (k0_pay2 x0 x1 x3 x4 x2) (k0_pay3 x0 x1 x3 x4 x2) := by
  unfold out0_5
  rw [View.canon_unit_zero hz3]
  simp only [View.ld_unit_zero (S := S2x1024x512) hz3, View.ld_unit_zero (S := S512x80) hz2, View.ld_unit_zero (S := S1x80) hz2,
    View.ld_unit_zero (S := S512x64) hz2]

theorem out_apply (x0 : Vec Ideal S2x1024x512 .f32) (x1 : Vec Ideal S512x80 .f32) (x2 : Vec Ideal S512x64 .f32) (x3 x4 : Vec Ideal S1x80 .f32)
    (bb : Fin 2) (d : Fin 512) (k : Fin 64) :
    out0_5 x0 x1 x2 x3 x4 (ix3 bb d k)
      = Vlad.vlad (fun n d => x0 (ix3 bb n d)) (fun d j => x1 (ix2 d j)) (fun j => x3 (ix2 (0 : Fin 1) j)) (fun j => x4 (ix2 (0 : Fin 1) j))
          (fun k d => x2 (ix2 d k)) d k := by
  rw [out_eq]
  exact Body.body_apply x0 x1 x2 x3 x4 bb d k

/-! ## What a point writes back, the cover, the array -/

/-- What point t writes back is block t of the descriptor array of the arguments. -/
theorem flushed_eq (c : Dev nD) (t : Fin cfg0.N) :
    (dats m 0 c).flushed 5 t = ((cfg0.win 5).blk t).view.read (Elt Ideal) (G m c) := by
  obtain ⟨-, -, -, -, -, -, -, -, -, -, -, e0, e1, e2⟩ := idx_facts t
  show (cfg0.win 5).cut (grid0.coords t) ((dats m 0 c).after 5 t) = _
  rw [after0_5]
  funext y
  obtain ⟨bb, d, k, rfl⟩ : ∃ (bb : Fin 2) (d : Fin 512) (k : Fin 64), y = ix3 bb d k := ⟨y 0, y 1, y 2, eq_ix3 y⟩
  refine (out_apply (iblk m c 0 t) (iblk m c 1 t) (iblk m c 2 t) (iblk m c 3 t) (iblk m c 4 t) bb d k).trans ?_
  have h0 : (fun (n : Fin 1024) (d : Fin 512) => (iblk m c 0 t : Vec Ideal S2x1024x512 .f32) (ix3 bb n d))
      = fun n d => (m ((c : Thread nD τ).loc main_arg0) : S64x1024x512.Idx → EReal) (ix3 (batch t bb) n d) :=
    funext fun n => funext fun d => iblk0_apply m c t bb n d
  have h1 : (fun (d : Fin 512) (j : Fin 80) => (iblk m c 1 t : Vec Ideal S512x80 .f32) (ix2 d j))
      = fun d j => (m ((c : Thread nD τ).loc main_arg1) : S512x80.Idx → EReal) (ix2 d j) :=
    funext fun d => funext fun j => iblk1_apply m c t d j
  have h2 : (fun (k : Fin 64) (d : Fin 512) => (iblk m c 2 t : Vec Ideal S512x64 .f32) (ix2 d k))
      = fun k d => (m ((c : Thread nD τ).loc main_arg4) : S64x512.Idx → EReal) (ix2 k d) :=
    funext fun k => funext fun d => iblk2_apply m c t d k
  have h3 : (fun (j : Fin 80) => (iblk m c 3 t : Vec Ideal S1x80 .f32) (ix2 (0 : Fin 1) j))
      = fun j => (m ((c : Thread nD τ).loc main_arg2) : S80.Idx → EReal) (ix1 j) := funext fun j => iblk3_apply m c t j
  have h4 : (fun (j : Fin 80) => (iblk m c 4 t : Vec Ideal S1x80 .f32) (ix2 (0 : Fin 1) j))
      = fun j => (m ((c : Thread nD τ).loc main_arg3) : S80.Idx → EReal) (ix1 j) := funext fun j => iblk4_apply m c t j
  rw [h0, h1, h2, h3, h4]
  show Gc m c (batch t bb) d k = G m c (((cfg0.win 5).blk t).view.emb (ix3 bb d k))
  unfold G
  have q0 : (⟨((((cfg0.win 5).blk t).view.emb (ix3 bb d k)) 0).val, ((((cfg0.win 5).blk t).view.emb (ix3 bb d k)) 0).isLt⟩ : Fin 64) = batch t bb :=
    Fin.ext (by show win0_5.index t (0 : Fin 3) * 2 + 1 * bb.val = 2 * t.val + bb.val; rw [e0]; omega)
  have q1 : (⟨((((cfg0.win 5).blk t).view.emb (ix3 bb d k)) 1).val, ((((cfg0.win 5).blk t).view.emb (ix3 bb d k)) 1).isLt⟩ : Fin 512) = d :=
    Fin.ext (by show win0_5.index t (1 : Fin 3) * 512 + 1 * d.val = d.val; rw [e1]; omega)
  have q2 : (⟨((((cfg0.win 5).blk t).view.emb (ix3 bb d k)) 2).val, ((((cfg0.win 5).blk t).view.emb (ix3 bb d k)) 2).isLt⟩ : Fin 64) = k :=
    Fin.ext (by show win0_5.index t (2 : Fin 3) * 64 + 1 * k.val = k.val; rw [e2]; omega)
  rw [q0, q1, q2]

/-- An index of the array is in point t's block iff each coordinate is in the block's range on its axis. -/
theorem mem_blk (t : Fin cfg0.N) (i : S64x512x64.Idx) :
    i ∈ ((cfg0.win 5).blk t).view.set ↔ ∀ a : Fin 3, win0_5.index t a * S2x512x64.size a ≤ (i a).val ∧ (i a).val < win0_5.index t a * S2x512x64.size a + S2x512x64.size a := by
  show i ∈ ((View.whole main_v3).slice (win0_5.rect t)).set ↔ _
  rw [View.set_slice_whole, Rect.mem_set_unit]
  exact Iff.rfl

/-- Every index of the array is in some point's block: row B is in point B / 2's. -/
theorem cover (i : S64x512x64.Idx) : ∃ t : Fin cfg0.N, (cfg0.win 5).flush t = true ∧ i ∈ ((cfg0.win 5).blk t).view.set := by
  have hN : cfg0.N = 32 := N_0
  have h0 : (i 0).val < 64 := (i 0).isLt
  have h1 : (i 1).val < 512 := (i 1).isLt
  have h2 : (i 2).val < 64 := (i 2).isLt
  obtain ⟨t, ht⟩ : ∃ t : Fin cfg0.N, t.val = (i 0).val / 2 := ⟨⟨(i 0).val / 2, by omega⟩, rfl⟩
  obtain ⟨-, -, -, -, -, -, -, -, -, -, -, e0, e1, e2⟩ := idx_facts t
  refine ⟨t, flush0_5 t, ?_⟩
  rw [mem_blk]
  intro a
  match a with
  | ⟨0, _⟩ => show win0_5.index t (0 : Fin 3) * 2 ≤ (i 0).val ∧ (i 0).val < win0_5.index t (0 : Fin 3) * 2 + 2; rw [e0]; omega
  | ⟨1, _⟩ => show win0_5.index t (1 : Fin 3) * 512 ≤ (i 1).val ∧ (i 1).val < win0_5.index t (1 : Fin 3) * 512 + 512; rw [e1]; omega
  | ⟨2, _⟩ => show win0_5.index t (2 : Fin 3) * 64 ≤ (i 2).val ∧ (i 2).val < win0_5.index t (2 : Fin 3) * 64 + 64; rw [e2]; omega

/-- The descriptor array after the region. -/
theorem final (c : Dev nD) : (dats m 0 c).arrAt 5 cfg0.N = G m c :=
  (dats m 0 c).arrAt_eq_of_cover 5 (G m c) (fun t _ => flushed_eq m c t) cover

/-! ## The host step after the region, and the run -/

/-- The result buffer after the last host step: the descriptor array re-laid. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  unfold result
  rw [(Pipeline.withArrays_arr spec0 launch0.win.arr_inj c _ _ 5).trans (final m c)]
  rfl

/-- Every weakly fair execution ends with the result buffer at the re-laid descriptor array of the arguments, the
    arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The result at (b, f): the normalized descriptor of batch b at (f / 64, f % 64). -/
theorem result_apply (c : Dev nD) (b : Fin 64) (f : Fin 32768) :
    (result m c : S64x32768.Idx → EReal) (ix2 b f)
      = Gc m c b ⟨f.val / 64, by have := f.isLt; omega⟩ ⟨f.val % 64, by omega⟩ := by
  have hb := b.isLt; have hf := f.isLt
  have hcast := shapeCast_apply (G m c : S64x512x64.Idx → EReal) shapeCasts_S64x512x64_S64x32768 (ix2 b f)
    (ix3 b (⟨f.val / 64, by omega⟩ : Fin 512) (⟨f.val % 64, by omega⟩ : Fin 64)) (by
      show (S64x512x64.rowMajor _).val = (S64x32768.rowMajor _).val
      rw [Shape.rowMajor_val_three, Shape.rowMajor_val_two]
      show (b.val * 512 + f.val / 64) * 64 + f.val % 64 = b.val * 32768 + f.val
      omega)
  exact hcast.trans rfl

end Cert.KernelIdeal.RunValue

end
-- ==== Proof.RefStages.lean ====
/-
  The reference, stage by stage, read at an index on the extended reals.

  The reference computes all 64 batches at once on tall arrays: row b * 1024 + n of its 65536-row score matrix is
  token n of batch b, and every later stage at a batch-b index depends on batch b of the input only. Chaining the
  one-operation readings of its run, each stage at such an index is the corresponding piece of the specification
  for batch b. Two places need a law: the reference takes the larger of minus infinity and the row maximum (minus
  infinity is the unit of max), and its second length is a sum along the flattened axis of 32768 entries, which is
  the double sum over rows and columns (sum_flat). Every sum starts from the zero word, which is the real zero.
-/
import proofs.«145174_j36215164240341_1_alg».proof.Proof.Gen.ReferenceIdeal.Read
import proofs.«145174_j36215164240341_1_alg».proof.Proof.LibAxisReads
import proofs.«145174_j36215164240341_1_alg».proof.Proof.Spec

noncomputable section

namespace Cert.ReferenceIdeal.RefValue

open Cert.ReferenceIdeal Cert.ReferenceIdeal.Read Idealize.ShloMosaic Idealize.ShloMosaic.ValueIdx Cert.AxisReads

/-- Row b * 1024 + n of the tall matrices: token n of batch b. -/
def trow (b : Fin 64) (n : Fin 1024) : Fin 65536 := ⟨b.val * 1024 + n.val, by have := b.isLt; have := n.isLt; omega⟩

/-- Position j of the flattened descriptor is row j / 64, -/
def frow (j : Fin 32768) : Fin 512 := ⟨j.val / 64, by have := j.isLt; omega⟩
/-- column j % 64. -/
def fcol (j : Fin 32768) : Fin 64 := ⟨j.val % 64, by omega⟩

/-! ## Where each layout operation reads, at a batch index -/

section Indices
variable (b : Fin 64) (n : Fin 1024) (j : Fin 80) (k : Fin 64) (d : Fin 512) (r : Fin 65536) (f : Fin 32768)

theorem i_v0 (kk : Fin 512) : idx_main_v0 (lidx_main_v1 (ix2 (trow b n) j) kk) = ix3 b n kk := by
  have hb := b.isLt; have hn := n.isLt; have hk := kk.isLt
  funext a; apply Fin.ext
  fin_cases a
  · show ((b.val * 1024 + n.val) * 512 + kk.val) / 524288 = b.val; omega
  · show ((b.val * 1024 + n.val) * 512 + kk.val) / 512 % 1024 = n.val; omega
  · show ((b.val * 1024 + n.val) * 512 + kk.val) % 512 = kk.val; omega
theorem i_v1r (kk : Fin 512) : ridx_main_v1 (ix2 r j) kk = ix2 kk j := by funext a; fin_cases a <;> rfl
theorem i_v3 : idx_main_v2 (idx_main_v3 (ix2 r j)) = ix1 j := by funext a; fin_cases a; rfl
theorem i_v9 : idx_main_v8 (idx_main_v9 (ix2 r j)) = ix1 j := by funext a; fin_cases a; rfl
theorem i_v15 : idx_main_v14 (idx_main_v15 (ix2 r j)) = ix1 r := by funext a; fin_cases a; rfl
theorem i_v18 (jj : Fin 80) : idx_main_v18 (ix1 r) jj = ix2 r jj := by funext a; fin_cases a <;> rfl
theorem i_v20 : idx_main_v19 (idx_main_v20 (ix2 r j)) = ix1 r := by funext a; fin_cases a; rfl
theorem i_v23 : idx_main_v22 (idx_main_v23 (ix3 b n k)) = ix2 (trow b n) (Vlad.kept k) := by
  have hb := b.isLt; have hn := n.isLt; have hk := k.isLt
  funext a; apply Fin.ext
  fin_cases a
  · show ((b.val * 1024 + n.val) * 64 + k.val) / 64 = b.val * 1024 + n.val; omega
  · show ((b.val * 1024 + n.val) * 64 + k.val) % 64 = k.val; omega
theorem i_v24 (nn : Fin 1024) : idx_main_v24 (ix2 b k) nn = ix3 b nn k := by funext a; fin_cases a <;> rfl
theorem i_v25l (nn : Fin 1024) : lidx_main_v25 (ix3 b k d) nn = ix3 b nn k := by funext a; fin_cases a <;> rfl
theorem i_v25r (nn : Fin 1024) : ridx_main_v25 (ix3 b k d) nn = ix3 b nn d := by funext a; fin_cases a <;> rfl
theorem i_v28 : idx_main_v26 (idx_main_v28 (ix3 b k d)) = ix2 b k := by funext a; fin_cases a <;> rfl
theorem i_v29 : idx_main_v27 (idx_main_v29 (ix3 b k d)) = ix2 k d := by funext a; fin_cases a <;> rfl
theorem i_v32 : idx_main_v32 (ix3 b d k) = ix3 b k d := by funext a; fin_cases a <;> rfl
theorem i_c0v1 (kk : Fin 64) : idx_main_call0_v1 (ix2 b d) kk = ix3 b d kk := by funext a; fin_cases a <;> rfl
theorem i_v36 : idx_main_call0_v2 (idx_main_v36 (ix3 b d k)) = ix2 b d := by funext a; fin_cases a <;> rfl
theorem i_v38 : idx_main_v38 (ix2 b f) = ix3 b (frow f) (fcol f) := by
  have hb := b.isLt; have hf := f.isLt
  funext a; apply Fin.ext
  fin_cases a
  · show (b.val * 32768 + f.val) / 32768 = b.val; omega
  · show (b.val * 32768 + f.val) / 64 % 512 = f.val / 64; omega
  · show (b.val * 32768 + f.val) % 64 = f.val % 64; omega
theorem i_c1v1 (ff : Fin 32768) : idx_main_call1_v1 (ix1 b) ff = ix2 b ff := by funext a; fin_cases a <;> rfl
theorem i_v42 : idx_main_call1_v2 (idx_main_v42 (ix2 b f)) = ix1 b := by funext a; fin_cases a; rfl

end Indices

/-! ## The stages -/

section Stages
variable (x0 : (⟨S64x1024x512, .f32⟩ : BufTy).Contents (Elt Ideal)) (x1 : (⟨S512x80, .f32⟩ : BufTy).Contents (Elt Ideal))
  (x2 x3 : (⟨S80, .f32⟩ : BufTy).Contents (Elt Ideal)) (x4 : (⟨S64x512, .f32⟩ : BufTy).Contents (Elt Ideal))

/-- Batch b's tokens. -/
def xB (b : Fin 64) : Fin 1024 → Fin 512 → EReal := fun n d => x0 (ix3 b n d)
/-- The cluster directions, the running mean and variance, the cluster centres, by coordinates. -/
def cL : Fin 512 → Fin 80 → EReal := fun d j => x1 (ix2 d j)
def rM : Fin 80 → EReal := fun j => x2 (ix1 j)
def rV : Fin 80 → EReal := fun j => x3 (ix1 j)
def c2 : Fin 64 → Fin 512 → EReal := fun k d => x4 (ix2 k d)

/-- Token n of batch b: its row of scores, -/
def sc (b : Fin 64) (n : Fin 1024) : Fin 80 → EReal := Vlad.score (xB x0 b) (cL x1) (rM x2) (rV x3) n
/-- batch b's weights, -/
def wt (b : Fin 64) : Fin 1024 → Fin 64 → EReal := fun n k => Vlad.soft (sc x0 x1 x2 x3 b n) (Vlad.kept k)
/-- batch b's residual descriptor. -/
def rs (b : Fin 64) : Fin 512 → Fin 64 → EReal := Vlad.resid (xB x0 b) (wt x0 x1 x2 x3 b) (c2 x4)

theorem score_at (b : Fin 64) (n : Fin 1024) (j : Fin 80) :
    val_main_v10 (F := Ideal) x0 x1 x2 x3 (ix2 (trow b n) j) = sc x0 x1 x2 x3 b n j := by
  rw [val_main_v10_apply, val_main_v4_apply, val_main_v1_apply, val_main_v3_apply, val_main_v2_apply, i_v3, val_main_v9_apply,
    val_main_v8_apply, i_v9, val_main_v7_apply, val_main_v6_apply, val_main_v5_apply, val_main_cst_apply]
  simp only [val_main_v0_apply, i_v0, i_v1r]
  rfl

theorem max_at (b : Fin 64) (n : Fin 1024) :
    val_main_v13 (F := Ideal) x0 x1 x2 x3 (ix1 (trow b n)) = Vlad.rowMax (sc x0 x1 x2 x3 b n) := by
  have h : (⟨2, ![65536, 80]⟩ : Shape).Reduces [1] ⟨1, ![65536]⟩ := by decide
  rw [val_main_v13_apply, val_main_v12_apply, val_main_cst_1_apply]
  unfold val_main_v11
  rw [hostMax_cols _ _ _ h _ (trow b n)]
  simp only [score_at]
  exact Vlad.max_negInf _

theorem expo_at (b : Fin 64) (n : Fin 1024) (j : Fin 80) :
    val_main_v17 (F := Ideal) x0 x1 x2 x3 (ix2 (trow b n) j) = Vlad.expo (sc x0 x1 x2 x3 b n) j := by
  rw [val_main_v17_apply, val_main_v16_apply, val_main_v15_apply, val_main_v14_apply, i_v15, max_at, score_at]
  rfl

theorem sum_at (b : Fin 64) (n : Fin 1024) :
    val_main_v18 (F := Ideal) x0 x1 x2 x3 (ix1 (trow b n)) = ∑ j : Fin 80, Vlad.expo (sc x0 x1 x2 x3 b n) j := by
  rw [val_main_v18_apply, val_main_cst_2_apply]
  simp only [i_v18, expo_at]
  show Ideal.ofBits .f32 0x00000000#32 + _ = _
  rw [Ideal.ofBits_zero_f32, zero_add]

theorem soft_at (b : Fin 64) (n : Fin 1024) (k : Fin 64) :
    val_main_v23 (F := Ideal) x0 x1 x2 x3 (ix3 b n k) = wt x0 x1 x2 x3 b n k := by
  rw [val_main_v23_apply, val_main_v22_apply, i_v23, val_main_v21_apply, val_main_v20_apply, val_main_v19_apply, i_v20, sum_at, expo_at]
  rfl

theorem asum_at (b : Fin 64) (k : Fin 64) :
    val_main_v24 (F := Ideal) x0 x1 x2 x3 (ix2 b k) = ∑ n : Fin 1024, wt x0 x1 x2 x3 b n k := by
  rw [val_main_v24_apply, val_main_cst_3_apply]
  simp only [i_v24, soft_at]
  show Ideal.ofBits .f32 0x00000000#32 + _ = _
  rw [Ideal.ofBits_zero_f32, zero_add]

theorem resid_at (b : Fin 64) (d : Fin 512) (k : Fin 64) :
    val_main_v32 (F := Ideal) x0 x1 x2 x3 x4 (ix3 b d k) = rs x0 x1 x2 x3 x4 b d k := by
  rw [val_main_v32_apply, i_v32, val_main_v31_apply, val_main_v25_apply, val_main_v30_apply, val_main_v28_apply, val_main_v26_apply,
    i_v28, asum_at, val_main_v29_apply, val_main_v27_apply, i_v29]
  simp only [i_v25l, i_v25r, soft_at]
  rfl

theorem intra_at (b : Fin 64) (d : Fin 512) (k : Fin 64) :
    val_main_v37 (F := Ideal) x0 x1 x2 x3 x4 (ix3 b d k) = Vlad.intra (rs x0 x1 x2 x3 x4 b) d k := by
  rw [val_main_v37_apply, val_main_v36_apply, val_main_v35_apply, val_main_v33_apply, val_main_call0_v2_apply, i_v36,
    val_main_call0_v1_apply, val_main_call0_cst_apply, val_main_v34_apply, val_main_cst_4_apply, resid_at]
  simp only [i_c0v1, val_main_call0_v0_apply, resid_at]
  unfold Vlad.intra
  show Ideal.div _ (max (Ideal.sqrt (Ideal.ofBits .f32 0x00000000#32 + _)) _) = _
  rw [Ideal.ofBits_zero_f32, zero_add]
  rfl

theorem flat_at (b : Fin 64) (f : Fin 32768) :
    val_main_v38 (F := Ideal) x0 x1 x2 x3 x4 (ix2 b f) = Vlad.intra (rs x0 x1 x2 x3 x4 b) (frow f) (fcol f) := by
  rw [val_main_v38_apply, i_v38, intra_at]

theorem total_at (b : Fin 64) :
    val_main_call1_v1 (F := Ideal) x0 x1 x2 x3 x4 (ix1 b)
      = ∑ d : Fin 512, ∑ k : Fin 64, Vlad.intra (rs x0 x1 x2 x3 x4 b) d k * Vlad.intra (rs x0 x1 x2 x3 x4 b) d k := by
  rw [val_main_call1_v1_apply, val_main_call1_cst_apply]
  simp only [i_c1v1, val_main_call1_v0_apply, flat_at]
  show Ideal.ofBits .f32 0x00000000#32 + _ = _
  rw [Ideal.ofBits_zero_f32, zero_add]
  exact Vlad.sum_flat (fun d k => Vlad.intra (rs x0 x1 x2 x3 x4 b) d k * Vlad.intra (rs x0 x1 x2 x3 x4 b) d k)

/-- The reference's result at batch b, flattened position f: the normalized descriptor of batch b at (f / 64, f % 64). -/
theorem result_at (b : Fin 64) (f : Fin 32768) :
    val_main_v43 (F := Ideal) x0 x1 x2 x3 x4 (ix2 b f)
      = Vlad.vlad (xB x0 b) (cL x1) (rM x2) (rV x3) (c2 x4) (frow f) (fcol f) := by
  rw [val_main_v43_apply, val_main_v42_apply, val_main_v41_apply, val_main_v39_apply, val_main_call1_v2_apply, i_v42, total_at,
    val_main_v40_apply, val_main_cst_5_apply, flat_at]
  rfl

end Stages

end Cert.ReferenceIdeal.RefValue

end
-- ==== Proof.lean ====
/-
  The kernel and its reference are one function on the extended reals.

  Both programs take 64 batches of 1024 tokens with 512 features, 80 cluster directions with a running mean and
  variance, and 64 cluster centres, and return for each batch a 512 x 64 descriptor, flattened to 32768 entries:
  the tokens' scores against the clusters are normalized and passed through a softmax over the 80 clusters (row
  maximum subtracted first), the first 64 weights are kept, the weighted sum of the tokens minus the total weight
  times each centre is formed, every feature row of it is divided by its length, and the whole by its length
  (Proof/Spec.lean states this for one batch).

  The kernel walks the batches two at a time; the reference treats all 64 at once on tall arrays. Neither
  difference is seen by a single entry of the result: entry (b, f) depends on batch b alone. The kernel subtracts
  the centre term after transposing, the reference before; the reference takes a redundant maximum with minus
  infinity; and the last length is summed row by row in the kernel and along the flattened axis in the reference.
  The first is pointwise, the second uses that minus infinity is the unit of max, the third that addition of
  extended reals is commutative and associative. No step cancels, distributes or divides out a common factor, so
  the equality holds at every extended real and the finiteness of the inputs is never used.

  The kernel's result array (Proof/KernelRun.lean, over the generated frame) and the reference's (Proof/RefStages.lean,
  over its generated run) are each read at an index (b, f) as the specification of batch b at (f / 64, f % 64).
-/
import proofs.«145174_j36215164240341_1_alg».proof.Defs
import proofs.«145174_j36215164240341_1_alg».proof.Proof.Gen.Kernel
import proofs.«145174_j36215164240341_1_alg».proof.Proof.Gen.Kernel.Skeleton
import proofs.«145174_j36215164240341_1_alg».proof.Proof.Gen.Kernel.Launch
import proofs.«145174_j36215164240341_1_alg».proof.Proof.Gen.Kernel.Points
import proofs.«145174_j36215164240341_1_alg».proof.Proof.Gen.Kernel.Frame
import proofs.«145174_j36215164240341_1_alg».proof.Proof.Gen.KernelIdeal
import proofs.«145174_j36215164240341_1_alg».proof.Proof.Gen.KernelIdeal.Skeleton
import proofs.«145174_j36215164240341_1_alg».proof.Proof.Gen.KernelIdeal.Launch
import proofs.«145174_j36215164240341_1_alg».proof.Proof.Gen.KernelIdeal.Points
import proofs.«145174_j36215164240341_1_alg».proof.Proof.Gen.KernelIdeal.Frame
import proofs.«145174_j36215164240341_1_alg».proof.Proof.Gen.ReferenceIdeal
import proofs.«145174_j36215164240341_1_alg».proof.Proof.Gen.ReferenceIdeal.Run
import proofs.«145174_j36215164240341_1_alg».proof.Proof.Gen.ReferenceIdeal.Read
import proofs.«145174_j36215164240341_1_alg».proof.Proof.Gen.Pre_finite_inputs
import proofs.«145174_j36215164240341_1_alg».proof.Proof.KernelRun
import proofs.«145174_j36215164240341_1_alg».proof.Proof.RefStages
import Idealize.ShloMosaic.Adequacy
import Idealize.ShloMosaic.Init

noncomputable section

namespace Cert.Proof

open Idealize.ShloMosaic Idealize.SL.Sem Idealize.ShloMosaic.ValueIdx

/-- The word-level kernel terminates, faults nowhere and leaves its arguments: the generated frame. -/
theorem frame_k : Cert.frame_Kernel := fun m ρ _ => Cert.Kernel.Gen.frame m ρ

/-- The same of the idealized kernel. -/
theorem frame_ki : Cert.frame_KernelIdeal := fun m ρ _ => Cert.KernelIdeal.Gen.frame m ρ

/-- The reference's generated run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: at (b, f) each holds
    the normalized descriptor of batch b at (f / 64, f % 64). -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2.1, (hagree c).2.2.2.2]
  funext i
  obtain ⟨b, f, rfl⟩ : ∃ (b : Fin 64) (f : Fin 32768), i = ix2 b f := ⟨i 0, i 1, eq_ix2 i⟩
  rw [Cert.ReferenceIdeal.RefValue.result_at]
  exact (Cert.KernelIdeal.RunValue.result_apply m c b f).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
